-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000x2 : Shape := ⟨2, ![1000000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S1000000x2 32) (main_arg2 : FVec F S256x256 .f32) (main_arg3 : FVec F S256 .f32) (main_arg4 : FVec F S256x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_v13 main_v16
-- ==== Kernel.lean ====
abbrev S100000x128 : Shape := ⟨2, ![100000, 128]⟩
abbrev S1000000x2 : Shape := ⟨2, ![1000000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S1000000x2x1 : Shape := ⟨3, ![1000000, 2, 1]⟩
abbrev S1000000x2x128 : Shape := ⟨3, ![1000000, 2, 128]⟩
abbrev S1000000x256 : Shape := ⟨2, ![1000000, 256]⟩
abbrev S1x256 : Shape := ⟨2, ![1, 256]⟩
abbrev S1x2 : Shape := ⟨2, ![1, 2]⟩
abbrev S8000x256 : Shape := ⟨2, ![8000, 256]⟩
abbrev S8000x2 : Shape := ⟨2, ![8000, 2]⟩

abbrev nBuf : Space → Nat
  | .hbm => 22
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1000000x2, .i32⟩
  | .hbm, ⟨2, _⟩ => ⟨S256x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S100000x128, .bf16⟩
  | .hbm, ⟨7, _⟩ => ⟨S_, .i32⟩
  | .hbm, ⟨8, _⟩ => ⟨S1000000x2, .i32⟩
  | .hbm, ⟨9, _⟩ => ⟨S1000000x2, .i1⟩
  | .hbm, ⟨10, _⟩ => ⟨S_, .i32⟩
  | .hbm, ⟨11, _⟩ => ⟨S1000000x2, .i32⟩
  | .hbm, ⟨12, _⟩ => ⟨S1000000x2, .i32⟩
  | .hbm, ⟨13, _⟩ => ⟨S1000000x2, .i32⟩
  | .hbm, ⟨14, _⟩ => ⟨S1000000x2x1, .i32⟩
  | .hbm, ⟨15, _⟩ => ⟨S1000000x2x128, .bf16⟩
  | .hbm, ⟨16, _⟩ => ⟨S1000000x256, .bf16⟩
  | .hbm, ⟨17, _⟩ => ⟨S256x256, .bf16⟩
  | .hbm, ⟨18, _⟩ => ⟨S256x2, .bf16⟩
  | .hbm, ⟨19, _⟩ => ⟨S1x256, .f32⟩
  | .hbm, ⟨20, _⟩ => ⟨S1x2, .f32⟩
  | .hbm, ⟨21, _⟩ => ⟨S1000000x2, .f32⟩
  | .local _ .vmem, ⟨0, _⟩ => ⟨S8000x256, .bf16⟩
  | .local _ .vmem, ⟨1, _⟩ => ⟨S8000x256, .bf16⟩
  | .local _ .vmem, ⟨2, _⟩ => ⟨S256x256, .bf16⟩
  | .local _ .vmem, ⟨3, _⟩ => ⟨S1x256, .f32⟩
  | .local _ .vmem, ⟨4, _⟩ => ⟨S256x2, .bf16⟩
  | .local _ .vmem, ⟨5, _⟩ => ⟨S1x2, .f32⟩
  | .local _ .vmem, ⟨6, _⟩ => ⟨S8000x2, .f32⟩
  | .local _ .vmem, ⟨7, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x128_S1000000x256 : S1000000x2x128.ShapeCasts S1000000x256
  shapeCasts_S256_S1x256 : S256.ShapeCasts S1x256
  shapeCasts_S2_S1x2 : S2.ShapeCasts S1x2
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  gather_S100000x128_S1000000x2x1_S1000000x2x128_2_0_n_n_0_2_1128_wf : GatherDims.WF S100000x128 S1000000x2x1 S1000000x2x128 [2] [0] [] [0] [] 2 ![1, 128]
  dot_S8000x256_S256x256_S8000x256_1_0_0_1_n_n_wf : DotDims.WF S8000x256 S256x256 S8000x256 [1] [0] [0] [1] [] []
  dot_S8000x256_S256x2_S8000x2_1_0_0_1_n_n_wf : DotDims.WF S8000x256 S256x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S1000000x256.size a
  hwx0_0 : ∀ i : grid0.Coords, EltTy.bits .bf16 = 32 ∨ (Rect.block (s := S1000000x256) S8000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .bf16 = 32 ∨ (Rect.block (s := S256x2) S256x2.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x2.size a ≤ S1000000x2.size a
  hwx0_5 : ∀ i : grid0.Coords, EltTy.bits .f32 = 32 ∨ (Rect.block (s := S1000000x2) S8000x2.size (cc0_transform_5 i) (hinb0_5 i)).WholeWords (EltTy.packing .f32)

variable [Facts₀]

def gather_S100000x128_S1000000x2x1_S1000000x2x128_2_0_n_n_0_2_1128 : GatherDims S100000x128 S1000000x2x1 S1000000x2x128 where
  offsetDims := [2]
  collapsedSliceDims := [0]
  operandBatchingDims := []
  startIndicesBatchingDims := []
  startIndexMap := [0]
  indexVectorDim := 2
  sliceSizes := ![1, 128]
  wf := gather_S100000x128_S1000000x2x1_S1000000x2x128_2_0_n_n_0_2_1128_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def dot_S8000x256_S256x2_S8000x2_1_0_0_1_n_n : DotDims S8000x256 S256x2 S8000x2 where
  lhsContracting := [1]
  rhsContracting := [0]
  lhsNonContracting := [0]
  rhsNonContracting := [1]
  lhsBatch := []
  rhsBatch := []
  wf := dot_S8000x256_S256x2_S8000x2_1_0_0_1_n_n_wf

abbrev win0_0 : Pipeline.Window sig grid0 :=
  Pipeline.Window.ofSpec (Memref.whole main_v8) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S8000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1000000x2 : Shape := ⟨2, ![1000000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S1000000x2x1 : Shape := ⟨3, ![1000000, 2, 1]⟩
abbrev S1000000x2x128 : Shape := ⟨3, ![1000000, 2, 128]⟩
abbrev S1000000x256 : Shape := ⟨2, ![1000000, 256]⟩
abbrev S1x256 : Shape := ⟨2, ![1, 256]⟩
abbrev S1x2 : Shape := ⟨2, ![1, 2]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000x2, .i32⟩
  | .hbm, ⟨2, _⟩ => ⟨S256x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S_, .i32⟩
  | .hbm, ⟨7, _⟩ => ⟨S1000000x2, .i32⟩
  | .hbm, ⟨8, _⟩ => ⟨S1000000x2, .i1⟩
  | .hbm, ⟨9, _⟩ => ⟨S_, .i32⟩
  | .hbm, ⟨10, _⟩ => ⟨S1000000x2, .i32⟩
  | .hbm, ⟨11, _⟩ => ⟨S1000000x2, .i32⟩
  | .hbm, ⟨12, _⟩ => ⟨S1000000x2, .i32⟩
  | .hbm, ⟨13, _⟩ => ⟨S1000000x2x1, .i32⟩
  | .hbm, ⟨14, _⟩ => ⟨S1000000x2x128, .f32⟩
  | .hbm, ⟨15, _⟩ => ⟨S1000000x256, .f32⟩
  | .hbm, ⟨16, _⟩ => ⟨S1000000x256, .f32⟩
  | .hbm, ⟨17, _⟩ => ⟨S1x256, .f32⟩
  | .hbm, ⟨18, _⟩ => ⟨S1000000x256, .f32⟩
  | .hbm, ⟨19, _⟩ => ⟨S1000000x256, .f32⟩
  | .hbm, ⟨20, _⟩ => ⟨S_, .f32⟩
  | .hbm, ⟨21, _⟩ => ⟨S1000000x256, .f32⟩
  | .hbm, ⟨22, _⟩ => ⟨S1000000x256, .f32⟩
  | .hbm, ⟨23, _⟩ => ⟨S1000000x2, .f32⟩
  | .hbm, ⟨24, _⟩ => ⟨S1x2, .f32⟩
  | .hbm, ⟨25, _⟩ => ⟨S1000000x2, .f32⟩
  | .hbm, ⟨26, _⟩ => ⟨S1000000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x128_S1000000x256 : S1000000x2x128.ShapeCasts S1000000x256
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  gather_S100000x128_S1000000x2x1_S1000000x2x128_2_0_n_n_0_2_1128_wf : GatherDims.WF S100000x128 S1000000x2x1 S1000000x2x128 [2] [0] [] [0] [] 2 ![1, 128]
  dot_S1000000x256_S256x256_S1000000x256_1_0_0_1_n_n_wf : DotDims.WF S1000000x256 S256x256 S1000000x256 [1] [0] [0] [1] [] []
  dot_S1000000x256_S256x2_S1000000x2_1_0_0_1_n_n_wf : DotDims.WF S1000000x256 S256x2 S1000000x2 [1] [0] [0] [1] [] []

variable [Facts₀]

def gather_S100000x128_S1000000x2x1_S1000000x2x128_2_0_n_n_0_2_1128 : GatherDims S100000x128 S1000000x2x1 S1000000x2x128 where
  offsetDims := [2]
  collapsedSliceDims := [0]
  operandBatchingDims := []
  startIndicesBatchingDims := []
  startIndexMap := [0]
  indexVectorDim := 2
  sliceSizes := ![1, 128]
  wf := gather_S100000x128_S1000000x2x1_S1000000x2x128_2_0_n_n_0_2_1128_wf
def dot_S1000000x256_S256x256_S1000000x256_1_0_0_1_n_n : DotDims S1000000x256 S256x256 S1000000x256 where
  lhsContracting := [1]
  rhsContracting := [0]
  lhsNonContracting := [0]
  rhsNonContracting := [1]
  lhsBatch := []
  rhsBatch := []
  wf := dot_S1000000x256_S256x256_S1000000x256_1_0_0_1_n_n_wf
def dot_S1000000x256_S256x2_S1000000x2_1_0_0_1_n_n : DotDims S1000000x256 S256x2 S1000000x2 where
  lhsContracting := [1]
  rhsContracting := [0]
  lhsNonContracting := [0]
  rhsNonContracting := [1]
  lhsBatch := []
  rhsBatch := []
  wf := dot_S1000000x256_S256x2_S1000000x2_1_0_0_1_n_n_wf

class Facts : Prop extends Facts₀ where

variable [Facts]
-- ==== Proof.Mlp.lean ====
/-
  The function both programs compute: a two-layer perceptron applied to every row of an activation array.
  For a row `p` of `X` (256 features), hidden unit `j` is `max (∑ k, X[p, k] · W1[k, j] + b1[j]) 0` and class `c`'s
  logit is `∑ j, hidden[p, j] · W2[j, c] + b2[c]`, on the extended reals. The zero of the rectifier is kept as the
  word both programs print for it. The row count `M` is a parameter: the same function is read at one block of 8000
  rows and at the whole array of 1000000 rows, and a logit depends on `X` only through its own row (`logit_row`),
  which is what lets a block of rows be computed apart from the others.
-/
import Idealize.ShloMosaic.PureOps.Ideal
import Idealize.ShloMosaic.Lib.ValueIdx

noncomputable section

open scoped BigOperators

namespace Cert.Mlp

open Idealize.ShloMosaic Idealize.ShloMosaic.ValueIdx

variable {M : Nat}

/-- Hidden unit `j` of row `p`: the rectified affine form of the row's 256 features. -/
def hidden (X : (⟨2, ![M, 256]⟩ : Shape).Idx → EReal) (W1 : (⟨2, ![256, 256]⟩ : Shape).Idx → EReal) (b1 : Fin 256 → EReal)
    (p : Fin M) (j : Fin 256) : EReal :=
  max ((∑ k : Fin 256, X (ix2 p k) * W1 (ix2 k j)) + b1 j) (Ideal.ofBits .f32 0x00000000#32)

/-- Class `c`'s logit of row `p`: the affine form of the row's 256 hidden units. -/
def logit (X : (⟨2, ![M, 256]⟩ : Shape).Idx → EReal) (W1 : (⟨2, ![256, 256]⟩ : Shape).Idx → EReal) (b1 : Fin 256 → EReal)
    (W2 : (⟨2, ![256, 2]⟩ : Shape).Idx → EReal) (b2 : Fin 2 → EReal) (p : Fin M) (c : Fin 2) : EReal :=
  (∑ j : Fin 256, hidden X W1 b1 p j * W2 (ix2 j c)) + b2 c

/-- The whole `M × 2` array of logits. -/
def logits (X : (⟨2, ![M, 256]⟩ : Shape).Idx → EReal) (W1 : (⟨2, ![256, 256]⟩ : Shape).Idx → EReal) (b1 : Fin 256 → EReal)
    (W2 : (⟨2, ![256, 2]⟩ : Shape).Idx → EReal) (b2 : Fin 2 → EReal) : (⟨2, ![M, 2]⟩ : Shape).Idx → EReal :=
  fun i => logit X W1 b1 W2 b2 (i 0) (i 1)

/-- A logit reads `X` only along its own row: two arrays (of any row counts) that agree on row `p` of one and row
    `p'` of the other give the same logits there. -/
theorem logit_row {M' : Nat} (X : (⟨2, ![M, 256]⟩ : Shape).Idx → EReal) (X' : (⟨2, ![M', 256]⟩ : Shape).Idx → EReal)
    (W1 : (⟨2, ![256, 256]⟩ : Shape).Idx → EReal) (b1 : Fin 256 → EReal)
    (W2 : (⟨2, ![256, 2]⟩ : Shape).Idx → EReal) (b2 : Fin 2 → EReal) (p : Fin M) (p' : Fin M')
    (h : ∀ k : Fin 256, X (ix2 p k) = X' (ix2 p' k)) (c : Fin 2) :
    logit X W1 b1 W2 b2 p c = logit X' W1 b1 W2 b2 p' c := by
  unfold logit hidden
  simp only [h]

end Cert.Mlp

end
-- ==== Proof.KernelArrays.lean ====
/-
  The arrays the kernel's one region finds, as functions of the program's arguments. Before the region the host
  casts the table and the two weight matrices to a narrower float format (the identity on the extended reals),
  gathers the rows the index pairs name and reshapes them to the `1000000 × 256` activation array, and reshapes each
  bias vector to a one-row array. The activation array is therefore the very array the reference's reshape stage
  holds — same gather, same index normalisation, applied to the same table — and it is identified with that stage as
  a whole, without reading the gather at any index.
-/
import proofs.«100470_j27101243638197_2_alg».proof.Proof.Gen.KernelIdeal.Frame
import proofs.«100470_j27101243638197_2_alg».proof.Proof.Gen.ReferenceIdeal.Read
import Idealize.ShloMosaic.Lib.StableHlo.Run
import Idealize.ShloMosaic.Lib.ValueIdx
import Idealize.ShloMosaic.Lib.ValueLayout
import Idealize.ShloMosaic.PureOps.Ideal

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The activation array: the reference's reshaped gathered rows of the same table and index pairs. -/
theorem activations (c : Dev nD) :
    (V m c main_v8 : S1000000x256.Idx → EReal)
      = Cert.ReferenceIdeal.Read.val_main_v7 (F := Ideal) (m ((c : Thread nD τ).loc main_arg0)) (m ((c : Thread nD τ).loc main_arg1)) := by
  dsimp only [Gen.V, Gen.hostOps0]; after_results; rfl

/-- The first weight matrix reaches the region unchanged. -/
theorem weights1 (c : Dev nD) : (V m c main_v9 : S256x256.Idx → EReal) = m ((c : Thread nD τ).loc main_arg2) := by
  dsimp only [Gen.V, Gen.hostOps0]; after_results; rfl

/-- The second weight matrix reaches the region unchanged. -/
theorem weights2 (c : Dev nD) : (V m c main_v10 : S256x2.Idx → EReal) = m ((c : Thread nD τ).loc main_arg4) := by
  dsimp only [Gen.V, Gen.hostOps0]; after_results; rfl

/-- The first bias, as the one row of a `1 × 256` array, read at column `q`. -/
theorem bias1 (c : Dev nD) (q : Fin 256) :
    (V m c main_v11 : S1x256.Idx → EReal) (ix2 (0 : Fin 1) q) = (m ((c : Thread nD τ).loc main_arg3) : S256.Idx → EReal) (ix1 q) := by
  have e : (V m c main_v11 : S1x256.Idx → EReal)
      = shapeCast S1x256 (m ((c : Thread nD τ).loc main_arg3) : S256.Idx → EReal) shapeCasts_S256_S1x256 := by
    dsimp only [Gen.V, Gen.hostOps0]; after_results; rfl
  rw [e]
  exact shapeCast_a_1a_apply _ shapeCasts_S256_S1x256 (0 : Fin 1) q

/-- The second bias, as the one row of a `1 × 2` array, read at column `q`. -/
theorem bias2 (c : Dev nD) (q : Fin 2) :
    (V m c main_v12 : S1x2.Idx → EReal) (ix2 (0 : Fin 1) q) = (m ((c : Thread nD τ).loc main_arg5) : S2.Idx → EReal) (ix1 q) := by
  have e : (V m c main_v12 : S1x2.Idx → EReal)
      = shapeCast S1x2 (m ((c : Thread nD τ).loc main_arg5) : S2.Idx → EReal) shapeCasts_S2_S1x2 := by
    dsimp only [Gen.V, Gen.hostOps0]; after_results; rfl
  rw [e]
  exact shapeCast_a_1a_apply _ shapeCasts_S2_S1x2 (0 : Fin 1) q

end Cert.KernelIdeal.Arrays

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.BlockPayload.lean ====
/-
  What one grid point's body stores, read at an index. The body holds a block of 8000 rows of the activation array,
  the two weight matrices whole, and the two biases as one-row arrays. Its stored value at row `p`, class `c` is the
  two-layer perceptron's logit of that row: each matrix-unit product into a zero accumulator is the plain sum over the
  256 contracted positions, a bias row broadcast down the block reads its one row, the rectifier is `max` against the
  zero word, and the changes of float format are the identity on the extended reals.
-/
import proofs.«100470_j27101243638197_2_alg».proof.Proof.Gen.KernelIdeal.Skeleton
import proofs.«100470_j27101243638197_2_alg».proof.Proof.LibMatmulNN
import proofs.«100470_j27101243638197_2_alg».proof.Proof.Mlp
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Cert.KernelIdeal.Gen Idealize.ShloMosaic Idealize.ShloMosaic.ValueIdx

/-- The first product, block by first weight matrix, at `(p, j)`: the sum over the 256 features. -/
theorem product1_apply (x0 : FVec Ideal S8000x256 .bf16) (x1 : FVec Ideal S256x256 .bf16) (p : Fin 8000) (j : Fin 256) :
    matmul dot_S8000x256_S256x256_S8000x256_1_0_0_1_n_n none x0 x1 (constant (F := Ideal) S8000x256 .f32 0x00000000#32) (ix2 p j)
      = ∑ k : Fin 256, x0 (ix2 p k) * x1 (ix2 k j) :=
  LibMatmulNN.matmul_zero_apply 8000 256 256 none x0 x1 p j

/-- The second product, hidden block by second weight matrix, at `(p, c)`: the sum over the 256 hidden units. -/
theorem product2_apply (h : FVec Ideal S8000x256 .bf16) (x3 : FVec Ideal S256x2 .bf16) (p : Fin 8000) (c : Fin 2) :
    matmul dot_S8000x256_S256x2_S8000x2_1_0_0_1_n_n none h x3 (constant (F := Ideal) S8000x2 .f32 0x00000000#32) (ix2 p c)
      = ∑ j : Fin 256, h (ix2 p j) * x3 (ix2 j c) :=
  LibMatmulNN.matmul_zero_apply 8000 256 2 none h x3 p c

/-- The body's stored value at row `p`, class `c` is the logit of row `p` of the block. -/
theorem payload_apply (x0 : FVec Ideal S8000x256 .bf16) (x1 : FVec Ideal S256x256 .bf16) (x2 : FVec Ideal S1x256 .f32)
    (x3 : FVec Ideal S256x2 .bf16) (x4 : FVec Ideal S1x2 .f32) (p : Fin 8000) (c : Fin 2) :
    k0_pay1 (F := Ideal) x0 x1 x2 x3 x4 (ix2 p c)
      = Mlp.logit x0 x1 (fun j => x2 (ix2 (0 : Fin 1) j)) x3 (fun q => x4 (ix2 (0 : Fin 1) q)) p c := by
  unfold k0_pay1
  simp only [shapeCast_self]
  unfold Mlp.logit Mlp.hidden
  refine congrArg₂ (· + ·)
    ((product2_apply _ x3 p c).trans (Finset.sum_congr rfl fun j _ => congrArg (· * x3 (ix2 j c)) ?_))
    (broadcastTo_1b_ab_apply x4 broadcasts_S1x2_S8000x2 p c)
  exact congrArg₂ max
    (congrArg₂ (· + ·) (product1_apply x0 x1 p j) (broadcastTo_1b_ab_apply x2 broadcasts_S1x256_S8000x256 p j)) rfl

end Cert.KernelIdeal.Block

end
-- ==== Proof.KernelValue.lean ====
/-
  The kernel's result array as one function of the arrays its region finds. The grid has 125 points; point `t` holds
  rows `8000·t … 8000·t + 7999` of the activation array and both weight matrices and both bias rows whole, and writes
  back rows `8000·t … 8000·t + 7999` of the result. A logit depends only on its own row of activations, so what point
  `t` writes back is exactly its block of the perceptron's logits of the WHOLE activation array; the 125 blocks tile
  the `1000000` rows (row `r` lies in block `r / 8000`), so the result array ends holding those logits everywhere.
-/
import proofs.«100470_j27101243638197_2_alg».proof.Proof.Gen.KernelIdeal.Value
import proofs.«100470_j27101243638197_2_alg».proof.Proof.BlockPayload
import proofs.«100470_j27101243638197_2_alg».proof.Proof.Mlp
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the activation and result windows at block row `t`, the weights
    and biases always at their one block. Decided over the 125 points. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- ONE POINT, over plain arrays: if the body's first operand is rows `8000·T …` of `X` and its other operands are
    `W1`, `B1`, `W2`, `B2` whole, then its stored value at `j` is the logit of `X` at the array index `i` that `j` names
    (row `8000·T + j₀`, the same class). -/
theorem point_logit (X : S1000000x256.Idx → EReal) (W1 : S256x256.Idx → EReal) (B1 : S1x256.Idx → EReal)
    (W2 : S256x2.Idx → EReal) (B2 : S1x2.Idx → EReal)
    (x0 : FVec Ideal S8000x256 .bf16) (x1 : FVec Ideal S256x256 .bf16) (x2 : FVec Ideal S1x256 .f32)
    (x3 : FVec Ideal S256x2 .bf16) (x4 : FVec Ideal S1x2 .f32) (T : Nat)
    (h0 : ∀ (y : S8000x256.Idx) (i : S1000000x256.Idx), (i 0).val = T * 8000 + (y 0).val → (i 1).val = (y 1).val → x0 y = X i)
    (h1 : ∀ y, x1 y = W1 y) (h2 : ∀ y, x2 y = B1 y) (h3 : ∀ y, x3 y = W2 y) (h4 : ∀ y, x4 y = B2 y)
    (j : S8000x2.Idx) (i : S1000000x2.Idx) (hi0 : (i 0).val = T * 8000 + (j 0).val) (hi1 : (i 1).val = (j 1).val) :
    k0_pay1 (F := Ideal) x0 x1 x2 x3 x4 j
      = Mlp.logits X W1 (fun q => B1 (ix2 (0 : Fin 1) q)) W2 (fun q => B2 (ix2 (0 : Fin 1) q)) i := by
  obtain ⟨p, c, rfl⟩ : ∃ (p : Fin 8000) (c : Fin 2), j = ix2 p c := ⟨j 0, j 1, eq_ix2 j⟩
  obtain ⟨p', c', rfl⟩ : ∃ (p' : Fin 1000000) (c' : Fin 2), i = ix2 p' c' := ⟨i 0, i 1, eq_ix2 i⟩
  obtain rfl : c' = c := Fin.ext hi1
  obtain rfl : x1 = W1 := funext h1
  obtain rfl : x2 = B1 := funext h2
  obtain rfl : x3 = W2 := funext h3
  obtain rfl : x4 = B2 := funext h4
  rw [Block.payload_apply]
  exact Mlp.logit_row x0 X x1 _ x3 _ p p' (fun k => h0 (ix2 p k) (ix2 p' k) hi0 rfl) c'

/-- The perceptron's logits of the arrays the region finds. -/
def result (c : Dev nD) : S1000000x2.Idx → EReal :=
  Mlp.logits (V m c main_v8 : S1000000x256.Idx → EReal) (V m c main_v9 : S256x256.Idx → EReal)
    (fun q => (V m c main_v11 : S1x256.Idx → EReal) (ix2 (0 : Fin 1) q)) (V m c main_v10 : S256x2.Idx → EReal)
    (fun q => (V m c main_v12 : S1x2.Idx → EReal) (ix2 (0 : Fin 1) q))

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S8000x256) zero_offsets, View.ld_unit_zero (S := S256x256) zero_offsets,
    View.ld_unit_zero (S := S1x256) zero_offsets, View.ld_unit_zero (S := S256x2) zero_offsets,
    View.ld_unit_zero (S := S1x2) zero_offsets]
  obtain ⟨e00, e01, e10, e11, e20, e21, e30, e31, e40, e41, e50, e51⟩ := block_positions t
  funext j
  show k0_pay1 (F := Ideal) (iblk m c 0 t) (iblk m c 1 t) (iblk m c 2 t) (iblk m c 3 t) (iblk m c 4 t) j
      = result m c (((cfg0.win 5).blk t).view.emb j)
  unfold result
  refine point_logit (V m c main_v8) (V m c main_v9) (V m c main_v11) (V m c main_v10) (V m c main_v12)
    (iblk m c 0 t) (iblk m c 1 t) (iblk m c 2 t) (iblk m c 3 t) (iblk m c 4 t) t.val ?_ ?_ ?_ ?_ ?_
    j (((cfg0.win 5).blk t).view.emb j) ?_ ?_
  · intro y i hy0 hy1
    show V m c main_v8 (((cfg0.win 0).blk t).view.emb y) = V m c main_v8 i
    refine congrArg (V m c main_v8) (funext fun a => Fin.ext ?_)
    match a with
    | ⟨0, _⟩ => show win0_0.index t (0 : Fin 2) * 8000 + 1 * (y 0).val = (i 0).val; omega
    | ⟨1, _⟩ => show win0_0.index t (1 : Fin 2) * 256 + 1 * (y 1).val = (i 1).val; omega
  · intro y
    show V m c main_v9 (((cfg0.win 1).blk t).view.emb y) = V m c main_v9 y
    refine congrArg (V m c main_v9) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · intro y
    show V m c main_v11 (((cfg0.win 2).blk t).view.emb y) = V m c main_v11 y
    refine congrArg (V m c main_v11) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  · intro y
    show V m c main_v10 (((cfg0.win 3).blk t).view.emb y) = V m c main_v10 y
    refine congrArg (V m c main_v10) (funext fun a => Fin.ext ?_)
    match a with
    | ⟨0, _⟩ => show win0_3.index t (0 : Fin 2) * 256 + 1 * (y 0).val = (y 0).val; omega
    | ⟨1, _⟩ => show win0_3.index t (1 : Fin 2) * 2 + 1 * (y 1).val = (y 1).val; omega
  · intro y
    show V m c main_v12 (((cfg0.win 4).blk t).view.emb y) = V m c main_v12 y
    refine congrArg (V m c main_v12) (funext fun a => Fin.ext ?_)
    match a with
    | ⟨0, _⟩ => show win0_4.index t (0 : Fin 2) * 1 + 1 * (y 0).val = (y 0).val; omega
    | ⟨1, _⟩ => show win0_4.index t (1 : Fin 2) * 2 + 1 * (y 1).val = (y 1).val; omega
  · show win0_5.index t (0 : Fin 2) * 8000 + 1 * (j 0).val = t.val * 8000 + (j 0).val; omega
  · show win0_5.index t (1 : Fin 2) * 2 + 1 * (j 1).val = (j 1).val; omega

/-- An index of the result array is in point `t`'s block iff each coordinate is in the block's range on its axis. -/
theorem mem_block (t : Fin cfg0.N) (i : S1000000x2.Idx) :
    i ∈ ((cfg0.win 5).blk t).view.set ↔ ∀ a : Fin 2, win0_5.index t a * S8000x2.size a ≤ (i a).val
      ∧ (i a).val < win0_5.index t a * S8000x2.size a + S8000x2.size a := by
  show i ∈ ((View.whole main_v13).slice (win0_5.rect t)).set ↔ _
  rw [View.set_slice_whole, Rect.mem_set_unit]
  exact Iff.rfl

/-- Every index of the result array is in some point's block: row `r` in block `r / 8000`. -/
theorem covered (i : S1000000x2.Idx) :
    ∃ t : Fin cfg0.N, (cfg0.win 5).flush t = true ∧ i ∈ ((cfg0.win 5).blk t).view.set := by
  have hi0 : (i 0).val < 1000000 := (i 0).isLt
  have hi1 : (i 1).val < 2 := (i 1).isLt
  have hN : cfg0.N = 125 := N_0
  obtain ⟨t, ht⟩ : ∃ t : Fin cfg0.N, t.val = (i 0).val / 8000 := ⟨⟨(i 0).val / 8000, by rw [hN]; omega⟩, rfl⟩
  obtain ⟨e00, e01, e10, e11, e20, e21, e30, e31, e40, e41, e50, e51⟩ := block_positions t
  refine ⟨t, flush0_5 t, ?_⟩
  rw [mem_block]
  intro a
  match a with
  | ⟨0, _⟩ =>
    show win0_5.index t (0 : Fin 2) * 8000 ≤ (i 0).val ∧ (i 0).val < win0_5.index t (0 : Fin 2) * 8000 + 8000
    omega
  | ⟨1, _⟩ =>
    show win0_5.index t (1 : Fin 2) * 2 ≤ (i 1).val ∧ (i 1).val < win0_5.index t (1 : Fin 2) * 2 + 2
    omega

/-- THE RESULT ARRAY after the run is `result`. -/
theorem final (c : Dev nD) : (dats m 0 c).arrAt 5 cfg0.N = result m c :=
  (dats m 0 c).arrAt_eq_of_cover 5 (result m c) (fun t _ => flushed_eq m c t) covered

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefIsMlp.lean ====
/-
  The reference computes the two-layer perceptron. Its run is a chain of stages; the stage that reshapes the gathered
  rows into the `1000000 × 256` activation array is kept whole (the gather is never opened: the kernel's program
  applies the same one), and everything after it is read index by index: each `dot_general` is the sum over its 256
  contracted positions, a bias vector broadcast through a one-row array down the rows reads the vector at the column,
  and `relu` is `max` against the zero word.
-/
import proofs.«100470_j27101243638197_2_alg».proof.Proof.Gen.ReferenceIdeal.Read
import proofs.«100470_j27101243638197_2_alg».proof.Proof.Mlp
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-- The rectified first layer at row `p`, unit `j`, over the reshaped gathered rows. -/
theorem hidden_apply (x0 : (⟨S100000x128, .f32⟩ : BufTy).Contents (Elt Ideal)) (x1 : (⟨S1000000x2, .i32⟩ : BufTy).Contents (Elt Ideal))
    (x2 : (⟨S256x256, .f32⟩ : BufTy).Contents (Elt Ideal)) (x3 : (⟨S256, .f32⟩ : BufTy).Contents (Elt Ideal))
    (p : Fin 1000000) (j : Fin 256) :
    val_main_v12 (F := Ideal) x0 x1 x2 x3 (ix2 p j)
      = Mlp.hidden (val_main_v7 (F := Ideal) x0 x1) x2 (fun q => x3 (ix1 q)) p j := by
  have el : ∀ k : Fin 256, lidx_main_v8 (ix2 p j) k = ix2 p k := fun k =>
    funext fun a => Fin.ext (by match a with | ⟨0, _⟩ => rfl | ⟨1, _⟩ => rfl)
  have er : ∀ k : Fin 256, ridx_main_v8 (ix2 p j) k = ix2 k j := fun k =>
    funext fun a => Fin.ext (by match a with | ⟨0, _⟩ => rfl | ⟨1, _⟩ => rfl)
  have eb : idx_main_v9 (idx_main_v10 (ix2 p j)) = ix1 j :=
    funext fun a => Fin.ext (by match a with | ⟨0, _⟩ => rfl)
  rw [val_main_v12_apply, val_main_v11_apply, val_main_v8_apply, val_main_v10_apply, val_main_v9_apply,
    val_main_call0_v0_apply, val_main_call0_cst_apply]
  simp only [el, er, eb]
  rfl

/-- The reference's result array is the perceptron's logits of the reshaped gathered rows. -/
theorem result_eq (x0 : (⟨S100000x128, .f32⟩ : BufTy).Contents (Elt Ideal)) (x1 : (⟨S1000000x2, .i32⟩ : BufTy).Contents (Elt Ideal))
    (x2 : (⟨S256x256, .f32⟩ : BufTy).Contents (Elt Ideal)) (x3 : (⟨S256, .f32⟩ : BufTy).Contents (Elt Ideal))
    (x4 : (⟨S256x2, .f32⟩ : BufTy).Contents (Elt Ideal)) (x5 : (⟨S2, .f32⟩ : BufTy).Contents (Elt Ideal)) :
    val_main_v16 (F := Ideal) x0 x1 x2 x3 x4 x5
      = Mlp.logits (val_main_v7 (F := Ideal) x0 x1) x2 (fun q => x3 (ix1 q)) x4 (fun q => x5 (ix1 q)) := by
  funext i
  obtain ⟨p, c, rfl⟩ : ∃ (p : Fin 1000000) (c : Fin 2), i = ix2 p c := ⟨i 0, i 1, eq_ix2 i⟩
  have el : ∀ k : Fin 256, lidx_main_v13 (ix2 p c) k = ix2 p k := fun k =>
    funext fun a => Fin.ext (by match a with | ⟨0, _⟩ => rfl | ⟨1, _⟩ => rfl)
  have er : ∀ k : Fin 256, ridx_main_v13 (ix2 p c) k = ix2 k c := fun k =>
    funext fun a => Fin.ext (by match a with | ⟨0, _⟩ => rfl | ⟨1, _⟩ => rfl)
  have eb : idx_main_v14 (idx_main_v15 (ix2 p c)) = ix1 c :=
    funext fun a => Fin.ext (by match a with | ⟨0, _⟩ => rfl)
  rw [val_main_v16_apply, val_main_v13_apply, val_main_v15_apply, val_main_v14_apply]
  simp only [el, er, eb, hidden_apply]
  rfl

end Cert.ReferenceIdeal.RefValue

end
-- ==== Proof.lean ====
/-
  A node-pair classifier: gather the two embedding rows each of 1000000 index pairs names (negative indices counted
  from the table's end), lay the pair side by side as 256 features, and apply a two-layer perceptron,
  `logit[e, c] = ∑ j, max (∑ k, x[e, k] · W1[k, j] + b1[j]) 0 · W2[j, c] + b2[c]`.

  The kernel's program and the reference gather identically on the host; the kernel's program then runs the perceptron
  in 125 blocks of 8000 rows on the matrix unit, after casting the table and the weights to a narrower float format,
  while the reference runs it as two whole matrix products. On the extended reals the casts are the identity, a
  matrix-unit product into a zero accumulator and a host product are the same sum over the 256 contracted positions,
  and a logit depends only on its own row, so the blocks are exactly the rows of the whole result: both programs end
  holding `Mlp.logits` of the same gathered activations (Proof/Mlp.lean the function; Proof/BlockPayload.lean one
  block; Proof/KernelValue.lean the blocks assembled; Proof/KernelArrays.lean what the host hands the region;
  Proof/RefIsMlp.lean the reference). No law beyond re-reading the sums is used, so the inputs' finiteness is never
  opened; the gather is never read at an index, being the same array on both sides.

  The three frames are the generated ones (the reference's is its run with the result dropped); the idealized kernel
  program is the printed one read at the extended reals with no rewrite, so there is nothing to preserve.
-/
import proofs.«100470_j27101243638197_2_alg».proof.Defs
import proofs.«100470_j27101243638197_2_alg».proof.Proof.Gen.Kernel
import proofs.«100470_j27101243638197_2_alg».proof.Proof.Gen.Kernel.Skeleton
import proofs.«100470_j27101243638197_2_alg».proof.Proof.Gen.Kernel.Launch
import proofs.«100470_j27101243638197_2_alg».proof.Proof.Gen.Kernel.Points
import proofs.«100470_j27101243638197_2_alg».proof.Proof.Gen.Kernel.Frame
import proofs.«100470_j27101243638197_2_alg».proof.Proof.Gen.KernelIdeal
import proofs.«100470_j27101243638197_2_alg».proof.Proof.Gen.KernelIdeal.Skeleton
import proofs.«100470_j27101243638197_2_alg».proof.Proof.Gen.KernelIdeal.Launch
import proofs.«100470_j27101243638197_2_alg».proof.Proof.Gen.KernelIdeal.Points
import proofs.«100470_j27101243638197_2_alg».proof.Proof.Gen.KernelIdeal.Frame
import proofs.«100470_j27101243638197_2_alg».proof.Proof.Gen.ReferenceIdeal
import proofs.«100470_j27101243638197_2_alg».proof.Proof.Gen.KernelIdeal.Value
import proofs.«100470_j27101243638197_2_alg».proof.Proof.Gen.ReferenceIdeal.Run
import proofs.«100470_j27101243638197_2_alg».proof.Proof.Gen.ReferenceIdeal.Read
import proofs.«100470_j27101243638197_2_alg».proof.Proof.Gen.Pre_finite_inputs
import proofs.«100470_j27101243638197_2_alg».proof.Proof.Mlp
import proofs.«100470_j27101243638197_2_alg».proof.Proof.KernelArrays
import proofs.«100470_j27101243638197_2_alg».proof.Proof.KernelValue
import proofs.«100470_j27101243638197_2_alg».proof.Proof.RefIsMlp
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array, as a function of the program's arguments: the perceptron's logits of the reference's
    own reshaped gathered rows, with the weights as given and each bias read as a vector. -/
theorem kernel_result (m : (ℓ : Loc Cert.KernelIdeal.nD Cert.KernelIdeal.τ Cert.KernelIdeal.sig) → Buf (Elt Ideal) ℓ)
    (c : Dev Cert.KernelIdeal.nD) :
    Cert.KernelIdeal.Whole.result m c
      = Cert.Mlp.logits
          (Cert.ReferenceIdeal.Read.val_main_v7 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg2))
          (fun q => (m ((c : Thread Cert.KernelIdeal.nD Cert.KernelIdeal.τ).loc Cert.KernelIdeal.main_arg3) : Cert.KernelIdeal.S256.Idx → EReal) (ix1 q))
          (m ((c : Thread Cert.KernelIdeal.nD Cert.KernelIdeal.τ).loc Cert.KernelIdeal.main_arg4))
          (fun q => (m ((c : Thread Cert.KernelIdeal.nD Cert.KernelIdeal.τ).loc Cert.KernelIdeal.main_arg5) : Cert.KernelIdeal.S2.Idx → EReal) (ix1 q)) := by
  unfold Cert.KernelIdeal.Whole.result
  rw [Cert.KernelIdeal.Arrays.activations, Cert.KernelIdeal.Arrays.weights1, Cert.KernelIdeal.Arrays.weights2]
  exact congrArg₂ (fun b1 b2 => Cert.Mlp.logits _ _ b1 _ b2)
    (funext fun q => Cert.KernelIdeal.Arrays.bias1 m c q) (funext fun q => Cert.KernelIdeal.Arrays.bias2 m c q)

/-- From memories that agree on the arguments both idealized programs end holding the same logits. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v16_eq _ _ _ _ _ _).trans
    ((Cert.ReferenceIdeal.RefValue.result_eq _ _ _ _ _ _).trans (kernel_result m c).symm)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
